-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S328x10000 : Shape := ⟨2, ![328, 10000]⟩
abbrev S328x128 : Shape := ⟨2, ![328, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S328x10000, .f32⟩
  | .local _ .vmem, ⟨2, _⟩ => ⟨S328x10000, .f32⟩
  | .local _ .vmem, ⟨3, _⟩ => ⟨S128x128, .f32⟩
  | .local _ .vmem, ⟨4, _⟩ => ⟨S1x128, .f32⟩
  | .local _ .vmem, ⟨5, _⟩ => ⟨S328x128, .f32⟩
  | .local _ .vmem, ⟨6, _⟩ => ⟨S328x128, .f32⟩
  | .local _ .vmem, ⟨7, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S328x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S328x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S328x10000_S328x10000_0_0 : ∀ a, (![0, 0] : Fin 2 → Nat) a + S328x10000.size a ≤ S328x10000.size a
  h_S328x10000 : 0 < S328x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S328x128 : S1x128.Broadcasts S328x128
  inb_S328x128_S328x128_0_0 : ∀ a, (![0, 0] : Fin 2 → Nat) a + S328x128.size a ≤ S328x128.size a
  h_S328x128 : 0 < S328x128.numel
  dot_S10000x128_S128x128_S10000x128_1_0_0_1_n_n_wf : DotDims.WF S10000x128 S128x128 S10000x128 [1] [0] [0] [1] [] []
  dot_S328x10000_S10000x128_S328x128_1_0_0_1_n_n_wf : DotDims.WF S328x10000 S10000x128 S328x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S328x10000.size a < S10000x10000.size a
  hwx0_1 : ∀ i : grid0.Coords, EltTy.bits .f32 = 32 ∨ (Rect.unit (s := S10000x10000) (fun a => cc0_transform_1 i a * S328x10000.size a) (fun a => (Pipeline.Clip.of (cc0_transform_1 i a) (S328x10000.size a) (S10000x10000.size a)).extent (S328x10000.size a)) fun a => Pipeline.Clip.inb (Pipeline.Clip.ok_of (hstart0_1 i a))).WholeWords (EltTy.packing .f32)
  hwxs0_1 : ∀ i : grid0.Coords, EltTy.bits .f32 = 32 ∨ (Rect.unit (s := S328x10000) (fun _ => 0) (fun a => (Pipeline.Clip.of (cc0_transform_1 i a) (S328x10000.size a) (S10000x10000.size a)).extent (S328x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S328x128.size a < S10000x128.size a
  hwx0_4 : ∀ i : grid0.Coords, EltTy.bits .f32 = 32 ∨ (Rect.unit (s := S10000x128) (fun a => cc0_transform_4 i a * S328x128.size a) (fun a => (Pipeline.Clip.of (cc0_transform_4 i a) (S328x128.size a) (S10000x128.size a)).extent (S328x128.size a)) fun a => Pipeline.Clip.inb (Pipeline.Clip.ok_of (hstart0_4 i a))).WholeWords (EltTy.packing .f32)
  hwxs0_4 : ∀ i : grid0.Coords, EltTy.bits .f32 = 32 ∨ (Rect.unit (s := S328x128) (fun _ => 0) (fun a => (Pipeline.Clip.of (cc0_transform_4 i a) (S328x128.size a) (S10000x128.size a)).extent (S328x128.size a)) fun a => (Nat.zero_add _).trans_le (Pipeline.Clip.extent_le (Pipeline.Clip.ok_of (hstart0_4 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S328x10000_S10000x128_S328x128_1_0_0_1_n_n : DotDims S328x10000 S10000x128 S328x128 where
  lhsContracting := [1]
  rhsContracting := [0]
  lhsNonContracting := [0]
  rhsNonContracting := [1]
  lhsBatch := []
  rhsBatch := []
  wf := dot_S328x10000_S10000x128_S328x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S328x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v1) S328x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KRun.lean ====
/-
  The kernel body run symbolically on whole staging memrefs, at any float instance, in its two control cases.

  At the first grid point the body forms the transformed features `x · W` from the whole blocks of `x` and `W` and
  stores them over the whole scratch buffer; at every point it then multiplies the current block of adjacency rows with
  what the scratch holds, adds the bias row, clamps at zero and stores the result over the whole output block. So the
  first point leaves one whole-buffer piece in the scratch and one in the output block; every later point reads the
  scratch as the point before left it, leaves it alone, and leaves one whole-buffer piece in the output block.

  Each run is stated as the list of pieces the stores leave (found by the run itself) together with the triple saying the
  body, started with the input buffers at given contents, ends with those buffers unchanged and the pieces written.
-/
import proofs.«167736_g85864986181825_cont_9to1_m_527_20_alg».proof.Proof.Gen.Kernel.Skeleton
import proofs.«167736_g85864986181825_cont_9to1_m_527_20_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinate: "this is the first row block". -/
abbrev isFirst (i : grid0.Coords) : Prop :=
  (Scalar.cmpi .ne (Scalar.extui (Scalar.cmpi .eq (BitVec.ofNat 32 (i 0).val) 0#32)) 0#32) = 1#1

/-- It holds at point 0 and nowhere else on the grid of 31 row blocks. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- The first row block: from the blocks of `x`, `adj`, `W` and the bias row, with the output block and the scratch at
    anything, the body ends with the inputs as they were and its pieces written into the output block and the scratch. -/
noncomputable def runFirst (c : Dev nD) (i : grid0.Coords)
    (arg1 : Memref sig .tc .vmem S10000x128 .f32) (harg1 : arg1.IsWhole) (arg2 : Memref sig .tc .vmem S328x10000 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S328x128 .f32) (harg5 : arg5.IsWhole) (arg6 : Memref sig .tc .vmem S10000x128 .f32) (harg6 : arg6.IsWhole)
    (hc : isFirst i)
    (x1 : Vec F S10000x128 .f32) (x2 : Vec F S328x10000 .f32) (x3 : Vec F S128x128 .f32) (x4 : Vec F S1x128 .f32) :
    Σ' (LO : List (View.Piece (Elt F) S328x128 .f32)), { LS : List (View.Piece (Elt F) S10000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_fused i arg1 harg1 arg2 harg2 arg3 harg3 arg4 harg4 arg5 harg5 arg6 harg6) K } := by
  refine ⟨?_, ?_, fun E K => ?run⟩
  case run =>
    simp only [cc0__gcn_fused_eq_skeleton]; unfold cc0__gcn_fused_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf1; obtain rfl := harg2.eq_unread hf2; obtain rfl := harg3.eq_unread hf3; obtain rfl := harg4.eq_unread hf4
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

set_option maxHeartbeats 1000000 in
/-- Every later row block: the scratch holds `xs` (what the first point left) and is only read; the body ends with the
    inputs and the scratch as they were and its piece written into the output block. -/
noncomputable def runLater (c : Dev nD) (i : grid0.Coords)
    (arg1 : Memref sig .tc .vmem S10000x128 .f32) (harg1 : arg1.IsWhole) (arg2 : Memref sig .tc .vmem S328x10000 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S328x128 .f32) (harg5 : arg5.IsWhole) (arg6 : Memref sig .tc .vmem S10000x128 .f32) (harg6 : arg6.IsWhole)
    (hc : ¬isFirst i)
    (x1 : Vec F S10000x128 .f32) (x2 : Vec F S328x10000 .f32) (x3 : Vec F S128x128 .f32) (x4 : Vec F S1x128 .f32) (xs : Vec F S10000x128 .f32) :
    { LO : List (View.Piece (Elt F) S328x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d) ∗ owns (c : Thread nD τ) arg6 fullShare xs
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f LO)
                ∗ owns (c : Thread nD τ) arg6 fullShare xs) -∗ K ⟨⟩))
          ⊢ wp frame (wpE (defs₀ (F := F)) Variants.none c none) E (cc0__gcn_fused i arg1 harg1 arg2 harg2 arg3 harg3 arg4 harg4 arg5 harg5 arg6 harg6) K } := by
  refine ⟨?_, fun E K => ?run⟩
  case run =>
    simp only [cc0__gcn_fused_eq_skeleton]; unfold cc0__gcn_fused_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf1; obtain rfl := harg2.eq_unread hf2; obtain rfl := harg3.eq_unread hf3; obtain rfl := harg4.eq_unread hf4
    obtain rfl := harg6.eq_unread hf6
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; isplitr; · ipureintro; exact harg6.read_unread _
    iexact H6

end Cert.Kernel.Body

end
-- ==== Proof.KFrame.lean ====
/-
  The kernel's frame at the word level: it runs to the end, faults nowhere, and leaves its four arguments unchanged.

  Nothing is claimed of what the kernel computes here, so nothing it writes is named: the output block is handed to the
  body at anything and taken back at anything, and the scratch is part of the launch's own invariant (some contents,
  before and after every point — the first point stores over it whole, every later point only reads it). What the frame
  needs is that the inputs are not disturbed: the three whole-array buffers hold their arrays at every point, and the
  adjacency buffer, refetched at every point, is left as the fetch filled it — on the rows inside the array the point's
  row block, which is all that is stated of a block that may reach past the array's end.
-/
import proofs.«167736_g85864986181825_cont_9to1_m_527_20_alg».proof.Proof.KRun

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand: a whole scoped buffer of the kernel's own. -/
abbrev scratchM : Memref sig .tc .vmem S10000x128 .f32 := Memref.whole cc0_scratch0

/-- The launch's invariant, with the scratch as a memref owned at some contents. -/
theorem PhiA_eq (c : Dev nD) :
    (Pipeline.ΦA spec0 c : sProp 𝕄)
      = iprop(iprop((∃ d, owns (c : Thread nD τ) scratchM fullShare d)) ∗ (∃ r, prngReg c r)) := by
  unfold Pipeline.ΦA; rw [scopedRest0_eq]; simp only [scratchM, owns_whole]; try rfl

/-- The one window whose contents are not named: the output. -/
def forgets : Fin 5 → Bool := fun | 0 => false | 1 => false | 2 => false | 3 => false | 4 => true | ⟨_ + 5, h⟩ => absurd h (Nat.not_lt.2 (Nat.le_add_left _ _))

/-- The proof data: the arrays as the region finds them; after the body the whole-array windows' buffers at their
    arrays and the adjacency buffer at its row block (the zero word past the array's end, where nothing is stated);
    the output not named; the launch's invariant at every point; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = win0_1.fill (grid0.coords t) (fun _ => Scalar.ofBits .f32 0#32) (iblk m c 1 t) := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

theorem before_0 (c : Dev nD) (t : Fin cfg0.N) (d) : (dats m 0 c).before 0 t d = iblk m c 0 t :=
  before0_0_of m (dats m 0 c) (A_eq m c 0) (after_0 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The adjacency buffer, fetched at every point, holds the point's row block where the fetch filled it and what it
    held (`d`, anything) past the array's end. -/
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq m c 1]; try rfl

set_option maxHeartbeats 2000000 in
/-- At every point the body runs from the launch's invariant and the buffers as the pipeline hands them, back to the
    invariant and to the input buffers as they were, the output block and the scratch at whatever the body left. -/
theorem body_obligation (c : Dev nD) :
    BodyObligationLoose (dats m 0 c) (defs₀ (F := F)) Variants.none () Set.univ forgets := fun t => by
  rw [bigSep_W0, bigSep_W0]
  simp only [forgets]
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, PhiA_eq]
  iintro ⟨⟨⟨%ds, HS⟩, Hg⟩, Ho, ⟨%d0, H0⟩, ⟨%d1, H1⟩, ⟨%d2, H2⟩, ⟨%d3, H3⟩, ⟨%d4, H4⟩⟩
  rw [before_0 m c t d0, before_1 m c t d1, before_2 m c t d2, before_3 m c t d3]
  by_cases hz : t.val = 0
  · have hc : isFirst (grid0.coords t) := (isFirst_iff t).mpr hz
    iapply ((runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) hc (iblk m c 0 t)
      (win0_1.fill (grid0.coords t) d1 (iblk m c 1 t)) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, ⟨%f5, H5⟩, ⟨%f6, H6⟩⟩
    isplitl [H6 Hg]
    · isplitl [H6]
      · iexists _; unfold owns; iexists _; isplitr
        swap; · iexact H6
        ipureintro; rfl
      iexact Hg
    isplitl [Ho]; · iexact Ho
    isplitl [H0]
    · rw [after_0]; iexact H0
    isplitl [H1]
    · iexists d1
      rw [after_1, Window.cut_fill]; iexact H1
    isplitl [H2]
    · rw [after_2]; iexact H2
    isplitl [H3]
    · rw [after_3]; iexact H3
    · iexists _; unfold owns; iexists _; isplitr
      swap; · iexact H5
      ipureintro; rfl
  · have hc : ¬isFirst (grid0.coords t) := fun h => hz ((isFirst_iff t).mp h)
    iapply ((runLater c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) hc (iblk m c 0 t)
      (win0_1.fill (grid0.coords t) d1 (iblk m c 1 t)) (iblk m c 2 t) (iblk m c 3 t) ds).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%f5, H5⟩, HS⟩
    isplitl [HS Hg]
    · isplitl [HS]; · iexists _; iexact HS
      iexact Hg
    isplitl [Ho]; · iexact Ho
    isplitl [H0]
    · rw [after_0]; iexact H0
    isplitl [H1]
    · iexists d1
      rw [after_1, Window.cut_fill]; iexact H1
    isplitl [H2]
    · rw [after_2]; iexact H2
    isplitl [H3]
    · rw [after_3]; iexact H3
    · iexists _; unfold owns; iexists _; isplitr
      swap; · iexact H5
      ipureintro; rfl

set_option backward.isDefEq.respectTransparency.types false in
/-- Every weakly fair execution of the kernel's @main terminates, and every final state has every input array of the
    pipeline as the region found it, nothing stated of the output array, and every other unscoped buffer as the region
    found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the three staged inputs are never written by the pipeline, and the bias vector, which only the reshape
    before the region reads, is among the buffers the region passes by. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun (((dats m 0 c).toRForget forgets).ArrAt_in 0 rfl _) _) ((h c).1 0)).trans ((A_eq m c 0).trans (V_main_arg0 m c)),
      (Eq.mp (congrFun (((dats m 0 c).toRForget forgets).ArrAt_in 1 rfl _) _) ((h c).1 1)).trans ((A_eq m c 1).trans (V_main_arg1 m c)),
      (Eq.mp (congrFun (((dats m 0 c).toRForget forgets).ArrAt_in 2 rfl _) _) ((h c).1 2)).trans ((A_eq m c 2).trans (V_main_arg2 m c)),
      ((h c).2 main_arg3 (Pipeline.mem_restRefs_of main_arg3 (by decide) (by decide))).trans (V_main_arg3 m c)⟩)
    (run_main m ρ)

end Cert.Kernel.Body

end
-- ==== Proof.KIRun.lean ====
/-
  The kernel body run symbolically on whole staging memrefs, at any float instance, in its two control cases.

  At the first grid point the body forms the transformed features `x · W` from the whole blocks of `x` and `W` and
  stores them over the whole scratch buffer; at every point it then multiplies the current block of adjacency rows with
  what the scratch holds, adds the bias row, clamps at zero and stores the result over the whole output block. So the
  first point leaves one whole-buffer piece in the scratch and one in the output block; every later point reads the
  scratch as the point before left it, leaves it alone, and leaves one whole-buffer piece in the output block.

  Each run is stated as the list of pieces the stores leave (found by the run itself) together with the triple saying the
  body, started with the input buffers at given contents, ends with those buffers unchanged and the pieces written.
-/
import proofs.«167736_g85864986181825_cont_9to1_m_527_20_alg».proof.Proof.Gen.KernelIdeal.Skeleton
import proofs.«167736_g85864986181825_cont_9to1_m_527_20_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinate: "this is the first row block". -/
abbrev isFirst (i : grid0.Coords) : Prop :=
  (Scalar.cmpi .ne (Scalar.extui (Scalar.cmpi .eq (BitVec.ofNat 32 (i 0).val) 0#32)) 0#32) = 1#1

/-- It holds at point 0 and nowhere else on the grid of 31 row blocks. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- The first row block: from the blocks of `x`, `adj`, `W` and the bias row, with the output block and the scratch at
    anything, the body ends with the inputs as they were and its pieces written into the output block and the scratch. -/
noncomputable def runFirst (c : Dev nD) (i : grid0.Coords)
    (arg1 : Memref sig .tc .vmem S10000x128 .f32) (harg1 : arg1.IsWhole) (arg2 : Memref sig .tc .vmem S328x10000 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S328x128 .f32) (harg5 : arg5.IsWhole) (arg6 : Memref sig .tc .vmem S10000x128 .f32) (harg6 : arg6.IsWhole)
    (hc : isFirst i)
    (x1 : Vec F S10000x128 .f32) (x2 : Vec F S328x10000 .f32) (x3 : Vec F S128x128 .f32) (x4 : Vec F S1x128 .f32) :
    Σ' (LO : List (View.Piece (Elt F) S328x128 .f32)), { LS : List (View.Piece (Elt F) S10000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_fused i arg1 harg1 arg2 harg2 arg3 harg3 arg4 harg4 arg5 harg5 arg6 harg6) K } := by
  refine ⟨?_, ?_, fun E K => ?run⟩
  case run =>
    simp only [cc0__gcn_fused_eq_skeleton]; unfold cc0__gcn_fused_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf1; obtain rfl := harg2.eq_unread hf2; obtain rfl := harg3.eq_unread hf3; obtain rfl := harg4.eq_unread hf4
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

set_option maxHeartbeats 1000000 in
/-- Every later row block: the scratch holds `xs` (what the first point left) and is only read; the body ends with the
    inputs and the scratch as they were and its piece written into the output block. -/
noncomputable def runLater (c : Dev nD) (i : grid0.Coords)
    (arg1 : Memref sig .tc .vmem S10000x128 .f32) (harg1 : arg1.IsWhole) (arg2 : Memref sig .tc .vmem S328x10000 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S328x128 .f32) (harg5 : arg5.IsWhole) (arg6 : Memref sig .tc .vmem S10000x128 .f32) (harg6 : arg6.IsWhole)
    (hc : ¬isFirst i)
    (x1 : Vec F S10000x128 .f32) (x2 : Vec F S328x10000 .f32) (x3 : Vec F S128x128 .f32) (x4 : Vec F S1x128 .f32) (xs : Vec F S10000x128 .f32) :
    { LO : List (View.Piece (Elt F) S328x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d) ∗ owns (c : Thread nD τ) arg6 fullShare xs
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f LO)
                ∗ owns (c : Thread nD τ) arg6 fullShare xs) -∗ K ⟨⟩))
          ⊢ wp frame (wpE (defs₀ (F := F)) Variants.none c none) E (cc0__gcn_fused i arg1 harg1 arg2 harg2 arg3 harg3 arg4 harg4 arg5 harg5 arg6 harg6) K } := by
  refine ⟨?_, fun E K => ?run⟩
  case run =>
    simp only [cc0__gcn_fused_eq_skeleton]; unfold cc0__gcn_fused_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf1; obtain rfl := harg2.eq_unread hf2; obtain rfl := harg3.eq_unread hf3; obtain rfl := harg4.eq_unread hf4
    obtain rfl := harg6.eq_unread hf6
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; isplitr; · ipureintro; exact harg6.read_unread _
    iexact H6

end Cert.KernelIdeal.Body

end
-- ==== Proof.KIPieces.lean ====
/-
  What the body's stores leave, read back: each run of the body leaves in the output block (and, at the first point, in
  the scratch) ONE store over the whole buffer, of a value computed from whole-buffer loads. A whole-buffer store leaves
  its payload, whatever the buffer held, and a whole-buffer load reads the contents; so after the first point the scratch
  holds the feature transform of the blocks of `x` and `W`, and after any point the output block holds the aggregation
  of the adjacency block against the scratch's contents, plus the bias row, clamped.
-/
import proofs.«167736_g85864986181825_cont_9to1_m_527_20_alg».proof.Proof.KIRun
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The zero offsets of a whole-buffer access of a rank-2 buffer. -/
theorem zeros2 : (![0, 0] : Fin 2 → Nat) = fun _ => 0 := funext fun a => by fin_cases a <;> rfl

/-- After the first point the scratch reads the feature transform of the two loaded blocks. -/
theorem first_scratch (c : Dev nD) (i : grid0.Coords) (arg1 : Memref sig .tc .vmem S10000x128 .f32) (harg1 : arg1.IsWhole) (arg2 : Memref sig .tc .vmem S328x10000 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S328x128 .f32) (harg5 : arg5.IsWhole) (arg6 : Memref sig .tc .vmem S10000x128 .f32) (harg6 : arg6.IsWhole) (hc : isFirst i)
    (x1 : Vec F S10000x128 .f32) (x2 : Vec F S328x10000 .f32) (x3 : Vec F S128x128 .f32) (x4 : Vec F S1x128 .f32)
    (f : arg6.view.ty.Contents (Elt F)) :
    arg6.view.read (Elt F) (arg6.view.writes (Elt F) f (runFirst c i arg1 harg1 arg2 harg2 arg3 harg3 arg4 harg4 arg5 harg5 arg6 harg6 hc x1 x2 x3 x4).2.1) = k0_pay1 x1 x3 := by
  unfold runFirst
  dsimp only
  sl_unfold_run_names
  refine (View.read_writes_eq_canon _ _ _ ?_).trans ?_
  · intro y
    refine ⟨_, List.mem_singleton_self _, ?_⟩
    exact View.mem_set_unit_zero (S := S10000x128) zeros2 inb_S10000x128_S10000x128_0_0 y
  rw [View.canon_unit_zero (S := S10000x128) zeros2]
  simp only [View.readAt_eq_ld, harg1.read_unread, harg3.read_unread, View.ld_unit_zero (S := S10000x128) zeros2,
    View.ld_unit_zero (S := S128x128) zeros2]

/-- After the first point the output block reads the body's second payload over the adjacency block, the feature
    transform just stored, and the bias row. -/
theorem first_out (c : Dev nD) (i : grid0.Coords) (arg1 : Memref sig .tc .vmem S10000x128 .f32) (harg1 : arg1.IsWhole) (arg2 : Memref sig .tc .vmem S328x10000 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S328x128 .f32) (harg5 : arg5.IsWhole) (arg6 : Memref sig .tc .vmem S10000x128 .f32) (harg6 : arg6.IsWhole) (hc : isFirst i)
    (x1 : Vec F S10000x128 .f32) (x2 : Vec F S328x10000 .f32) (x3 : Vec F S128x128 .f32) (x4 : Vec F S1x128 .f32)
    (f : arg5.view.ty.Contents (Elt F)) :
    arg5.view.read (Elt F) (arg5.view.writes (Elt F) f (runFirst c i arg1 harg1 arg2 harg2 arg3 harg3 arg4 harg4 arg5 harg5 arg6 harg6 hc x1 x2 x3 x4).1) = k0_pay2 x2 (k0_pay1 x1 x3) x4 := by
  unfold runFirst
  dsimp only
  sl_unfold_run_names
  refine (View.read_writes_eq_canon _ _ _ ?_).trans ?_
  · intro y
    refine ⟨_, List.mem_singleton_self _, ?_⟩
    exact View.mem_set_unit_zero (S := S328x128) zeros2 inb_S328x128_S328x128_0_0 y
  rw [View.canon_unit_zero (S := S328x128) zeros2]
  simp only [View.readAt_eq_ld, harg1.read_unread, harg2.read_unread, harg3.read_unread, harg4.read_unread,
    View.readCov_unit_zero _ (S := S10000x128) zeros2,
    View.ld_unit_zero (S := S10000x128) zeros2, View.ld_unit_zero (S := S128x128) zeros2,
    View.ld_unit_zero (S := S328x10000) zeros2, View.ld_unit_zero (S := S1x128) zeros2]

/-- After a later point the output block reads the same payload over the scratch's contents as the point found them. -/
theorem later_out (c : Dev nD) (i : grid0.Coords) (arg1 : Memref sig .tc .vmem S10000x128 .f32) (harg1 : arg1.IsWhole) (arg2 : Memref sig .tc .vmem S328x10000 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S328x128 .f32) (harg5 : arg5.IsWhole) (arg6 : Memref sig .tc .vmem S10000x128 .f32) (harg6 : arg6.IsWhole) (hc : ¬isFirst i)
    (x1 : Vec F S10000x128 .f32) (x2 : Vec F S328x10000 .f32) (x3 : Vec F S128x128 .f32) (x4 : Vec F S1x128 .f32) (xs : Vec F S10000x128 .f32)
    (f : arg5.view.ty.Contents (Elt F)) :
    arg5.view.read (Elt F) (arg5.view.writes (Elt F) f (runLater c i arg1 harg1 arg2 harg2 arg3 harg3 arg4 harg4 arg5 harg5 arg6 harg6 hc x1 x2 x3 x4 xs).1) = k0_pay2 x2 xs x4 := by
  unfold runLater
  dsimp only
  sl_unfold_run_names
  refine (View.read_writes_eq_canon _ _ _ ?_).trans ?_
  · intro y
    refine ⟨_, List.mem_singleton_self _, ?_⟩
    exact View.mem_set_unit_zero (S := S328x128) zeros2 inb_S328x128_S328x128_0_0 y
  rw [View.canon_unit_zero (S := S328x128) zeros2]
  simp only [View.readAt_eq_ld, harg2.read_unread, harg4.read_unread, harg6.read_unread,
    View.ld_unit_zero (S := S10000x128) zeros2, View.ld_unit_zero (S := S328x10000) zeros2, View.ld_unit_zero (S := S1x128) zeros2]

end Cert.KernelIdeal.Body

end
-- ==== Proof.KIPay.lean ====
/-
  The body's two stored values read at an index, on the extended reals.

  A matrix product into a zero accumulator is, entry by entry, the plain finite sum of the products along the one
  contracted axis: for the feature transform, `(x · W)[p, q] = ∑ j, x[p, j] · W[j, q]` over the 128 input features; for
  the aggregation of a block of 328 adjacency rows, `(a · s)[p, q] = ∑ k, a[p, k] · s[k, q]` over the 10000 nodes. Entry
  `(p, q)` of the second product reads row `p` of the adjacency block and nothing of its other rows — which is what
  lets the rows of an edge block that lie past the end of the array hold anything. The bias is one row broadcast over
  the block's rows, and the clamp is the maximum with the zero word.
-/
import proofs.«167736_g85864986181825_cont_9to1_m_527_20_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The operand indices of the two products -/

theorem featL0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem featL1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem featR0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem featR1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem aggL0 (i : S328x128.Idx) (q : dot_S328x10000_S10000x128_S328x128_1_0_0_1_n_n.contr.Idx) : (dot_S328x10000_S10000x128_S328x128_1_0_0_1_n_n.lhsIdx i q 0).val = (i 0).val := by
  unfold DotDims.lhsIdx
  rw [dif_neg (show ¬(0 : Fin S328x10000.rank) ∈ dot_S328x10000_S10000x128_S328x128_1_0_0_1_n_n.lhsBatch by decide), dif_pos (show (0 : Fin S328x10000.rank) ∈ dot_S328x10000_S10000x128_S328x128_1_0_0_1_n_n.lhsNonContracting by decide)]
  rfl
theorem aggL1 (i : S328x128.Idx) (q : dot_S328x10000_S10000x128_S328x128_1_0_0_1_n_n.contr.Idx) : (dot_S328x10000_S10000x128_S328x128_1_0_0_1_n_n.lhsIdx i q 1).val = (q ⟨0, by decide⟩).val :=
  dot_S328x10000_S10000x128_S328x128_1_0_0_1_n_n.lhsIdx_val_of_single rfl i q
theorem aggR0 (i : S328x128.Idx) (q : dot_S328x10000_S10000x128_S328x128_1_0_0_1_n_n.contr.Idx) : (dot_S328x10000_S10000x128_S328x128_1_0_0_1_n_n.rhsIdx i q 0).val = (q ⟨0, by decide⟩).val :=
  dot_S328x10000_S10000x128_S328x128_1_0_0_1_n_n.rhsIdx_val_of_single rfl i q
theorem aggR1 (i : S328x128.Idx) (q : dot_S328x10000_S10000x128_S328x128_1_0_0_1_n_n.contr.Idx) : (dot_S328x10000_S10000x128_S328x128_1_0_0_1_n_n.rhsIdx i q 1).val = (i 1).val := by
  unfold DotDims.rhsIdx
  rw [dif_neg (show ¬(1 : Fin S10000x128.rank) ∈ dot_S328x10000_S10000x128_S328x128_1_0_0_1_n_n.rhsBatch by decide), dif_pos (show (1 : Fin S10000x128.rank) ∈ dot_S328x10000_S10000x128_S328x128_1_0_0_1_n_n.rhsNonContracting by decide)]
  rfl

/-! ## The two products as sums -/

/-- The feature transform at `(p, q)`: row `p` of the left operand against column `q` of the right, over the 128 features. -/
theorem features_apply (l : FVec Ideal S10000x128 .f32) (r : FVec Ideal S128x128 .f32) (p : Fin 10000) (q : Fin 128) :
    matmul (F := Ideal) dot_S10000x128_S128x128_S10000x128_1_0_0_1_n_n none l r (constant S10000x128 .f32 0x00000000#32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact featL0 _ _
    | ⟨1, _⟩ => exact (featL1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (featR0 _ _).trans hk
    | ⟨1, _⟩ => exact featR1 _ _)
  rw [el, er]

/-- The aggregation of a block of rows at `(p, q)`: row `p` of the block against column `q` of the right operand, over the 10000 nodes. -/
theorem aggregate_apply (l : FVec Ideal S328x10000 .f32) (r : FVec Ideal S10000x128 .f32) (p : Fin 328) (q : Fin 128) :
    matmul (F := Ideal) dot_S328x10000_S10000x128_S328x128_1_0_0_1_n_n none l r (constant S328x128 .f32 0x00000000#32) (ix2 p q)
      = ∑ k : Fin 10000, l (ix2 p k) * r (ix2 k q) := by
  simp only [matmul]
  rw [Ideal.matmul_constant_zero_apply, ← Equiv.sum_comp (contrEquiv1 dot_S328x10000_S10000x128_S328x128_1_0_0_1_n_n 10000 rfl rfl).symm]
  refine Finset.sum_congr rfl fun k _ => ?_
  have hk := contrEquiv1_symm_val dot_S328x10000_S10000x128_S328x128_1_0_0_1_n_n 10000 rfl rfl k
  have el : dot_S328x10000_S10000x128_S328x128_1_0_0_1_n_n.lhsIdx (ix2 p q) ((contrEquiv1 dot_S328x10000_S10000x128_S328x128_1_0_0_1_n_n 10000 rfl rfl).symm k) = ix2 p k := funext fun a => Fin.ext (by
    match a with
    | ⟨0, _⟩ => exact aggL0 _ _
    | ⟨1, _⟩ => exact (aggL1 _ _).trans hk)
  have er : dot_S328x10000_S10000x128_S328x128_1_0_0_1_n_n.rhsIdx (ix2 p q) ((contrEquiv1 dot_S328x10000_S10000x128_S328x128_1_0_0_1_n_n 10000 rfl rfl).symm k) = ix2 k q := funext fun a => Fin.ext (by
    match a with
    | ⟨0, _⟩ => exact (aggR0 _ _).trans hk
    | ⟨1, _⟩ => exact aggR1 _ _)
  rw [el, er]

/-! ## The stored values -/

/-- What the first point stores into the scratch: the feature transform of the two loaded blocks. -/
theorem support_apply (x : Vec Ideal S10000x128 .f32) (w : Vec Ideal S128x128 .f32) (p : Fin 10000) (q : Fin 128) :
    k0_pay1 (F := Ideal) x w (ix2 p q) = ∑ j : Fin 128, x (ix2 p j) * w (ix2 j q) := by
  unfold k0_pay1
  rw [shapeCast_self]
  exact features_apply x w p q

/-- What every point stores into the output block: the block of adjacency rows against the scratch, plus the bias row,
    clamped below at the zero word. -/
theorem out_apply (a : Vec Ideal S328x10000 .f32) (s : Vec Ideal S10000x128 .f32) (b : Vec Ideal S1x128 .f32) (p : Fin 328) (q : Fin 128) :
    k0_pay2 (F := Ideal) a s b (ix2 p q)
      = max ((∑ k : Fin 10000, a (ix2 p k) * s (ix2 k q)) + b (ix2 (0 : Fin 1) q)) (Ideal.ofBits .f32 0x00000000#32) := by
  unfold k0_pay2
  rw [shapeCast_self]
  show max (matmul (F := Ideal) dot_S328x10000_S10000x128_S328x128_1_0_0_1_n_n none a s (constant S328x128 .f32 0x00000000#32) (ix2 p q)
      + broadcastTo S328x128 b broadcasts_S1x128_S328x128 (ix2 p q)) _ = _
  rw [aggregate_apply a s p q, broadcastTo_1b_ab_apply b broadcasts_S1x128_S328x128 p q]
  rfl

end Cert.KernelIdeal.Pay

end
-- ==== Proof.KIBlocks.lean ====
/-
  What each window's block holds, entry by entry, in terms of the argument arrays.

  The row-block grid has 31 points. The blocks of `x`, `W` and the bias row are the whole arrays at every point. Point
  `t`'s block of the adjacency matrix is its rows `328·t, 328·t + 1, …` — 328 of them, except at the last point, where
  only the 160 rows up to row 9999 exist — and all 10000 columns; the output block has the same rows and all 128
  columns. The bias row is the bias vector with a unit axis in front.
-/
import proofs.«167736_g85864986181825_cont_9to1_m_527_20_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-! ## The index maps and the cut sizes, decided over the grid -/

/-- The whole-array windows sit at block index `(0, 0)`; the two row-block windows at `(t, 0)`. -/
theorem index_facts : ∀ t : Fin cfg0.N,
    win0_0.index t 0 = 0 ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0
    ∧ win0_4.index t 0 = t.val ∧ win0_4.index t 1 = 0 :=
  (by decide +kernel : ∀ t : Fin grid0.N,
    win0_0.index t 0 = 0 ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0
    ∧ win0_4.index t 0 = t.val ∧ win0_4.index t 1 = 0)

/-- The rows a row block has inside the array: 328, or what is left below row 10000; all of its columns. The adjacency
    block and the output block are cut alike. -/
theorem xsize_facts : ∀ t : Fin cfg0.N,
    win0_1.xsize (grid0.coords t) 0 = min 328 (10000 - t.val * 328) ∧ win0_1.xsize (grid0.coords t) 1 = 10000
    ∧ win0_4.xsize (grid0.coords t) 0 = min 328 (10000 - t.val * 328) ∧ win0_4.xsize (grid0.coords t) 1 = 128 :=
  (by decide +kernel : ∀ t : Fin grid0.N,
    win0_1.xsize (grid0.coords t) 0 = min 328 (10000 - t.val * 328) ∧ win0_1.xsize (grid0.coords t) 1 = 10000
    ∧ win0_4.xsize (grid0.coords t) 0 = min 328 (10000 - t.val * 328) ∧ win0_4.xsize (grid0.coords t) 1 = 128)

/-! ## The blocks read at coordinates -/

/-- The block of `x` is `x`. -/
theorem xBlock_apply (c : Dev nD) (t : Fin cfg0.N) (p : Fin 10000) (j : Fin 128) :
    iblk m c 0 t (ix2 p j) = m ((c : Thread nD τ).loc main_arg0) (ix2 p j) := by
  unfold iblk
  rw [View.read_apply]
  refine (congrFun (V_main_arg0 m c) _).trans (congrArg _ (funext fun a => Fin.ext ?_))
  match a with
  | ⟨0, _⟩ => show win0_0.index t 0 * 10000 + 1 * p.val = p.val; rw [(index_facts t).1]; omega
  | ⟨1, _⟩ => show win0_0.index t 1 * 128 + 1 * j.val = j.val; rw [(index_facts t).2.1]; omega

/-- The block of `W` is `W`. -/
theorem wBlock_apply (c : Dev nD) (t : Fin cfg0.N) (j : Fin 128) (q : Fin 128) :
    iblk m c 2 t (ix2 j q) = m ((c : Thread nD τ).loc main_arg2) (ix2 j q) := by
  unfold iblk
  rw [View.read_apply]
  refine (congrFun (V_main_arg2 m c) _).trans (congrArg _ (funext fun a => Fin.ext ?_))
  match a with
  | ⟨0, _⟩ => show win0_2.index t 0 * 128 + 1 * j.val = j.val; rw [(index_facts t).2.2.2.2.1]; omega
  | ⟨1, _⟩ => show win0_2.index t 1 * 128 + 1 * q.val = q.val; rw [(index_facts t).2.2.2.2.2.1]; omega

/-- The bias row as the region finds it: the bias vector with a unit axis in front. -/
theorem biasRow_eq (c : Dev nD) :
    (V m c main_v0 : S1x128.Idx → Elt F .f32) = shapeCast S1x128 (m ((c : Thread nD τ).loc main_arg3)) shapeCasts_S128_S1x128 := by
  dsimp only [Gen.V, Gen.hostOps0]; after_results; rfl

/-- The block of the bias row reads, in its one row, the bias of the column. -/
theorem bBlock_apply (c : Dev nD) (t : Fin cfg0.N) (q : Fin 128) :
    iblk m c 3 t (ix2 (0 : Fin 1) q) = m ((c : Thread nD τ).loc main_arg3) (ix1 q) := by
  unfold iblk
  rw [View.read_apply]
  have e : ((cfg0.win 3).blk t).view.emb (ix2 (0 : Fin 1) q) = ix2 (0 : Fin 1) q := funext fun a => Fin.ext (by
    match a with
    | ⟨0, _⟩ => show win0_3.index t 0 * 1 + 1 * 0 = 0; rw [(index_facts t).2.2.2.2.2.2.1]
    | ⟨1, _⟩ => show win0_3.index t 1 * 128 + 1 * q.val = q.val; rw [(index_facts t).2.2.2.2.2.2.2.1]; omega)
  rw [e]
  exact (congrFun (biasRow_eq m c) _).trans (shapeCast_a_1a_apply _ shapeCasts_S128_S1x128 (0 : Fin 1) q)

/-- Point `t`'s block of the adjacency matrix, at an entry inside the array, is the matrix at row `328·t + p`. -/
theorem adjBlock_apply (c : Dev nD) (t : Fin cfg0.N) (y : ((cfg0.win 1).xblock (cfg0.grid.coords t)).Idx)
    (r : Fin 10000) (k : Fin 10000) (hr : r.val = t.val * 328 + (y 0).val) (hk : k.val = (y 1).val) :
    iblk m c 1 t y = m ((c : Thread nD τ).loc main_arg1) (ix2 r k) := by
  unfold iblk
  rw [View.read_apply]
  refine (congrFun (V_main_arg1 m c) _).trans (congrArg _ (funext fun a => Fin.ext ?_))
  match a with
  | ⟨0, _⟩ => show win0_1.index t 0 * 328 + 1 * (y 0).val = r.val; rw [(index_facts t).2.2.1]; omega
  | ⟨1, _⟩ => show win0_1.index t 1 * 10000 + 1 * (y 1).val = k.val; rw [(index_facts t).2.2.2.1]; omega

/-! ## A staging buffer filled by a cut fetch, at an entry the fetch moved -/

/-- Where the fetch moved the entry (every coordinate below the cut size), the filled buffer holds the fetched block. -/
theorem fill_of_lt {G : Pipeline.Grid} (w : Window sig G) {α : Type} (i : G.Coords) (d : w.block.Idx → α) (g : (w.xblock i).Idx → α)
    (j : w.block.Idx) (h : ∀ a, (j a).val < w.xsize i a) : w.fill i d g j = g fun a => ⟨(j a).val, h a⟩ := by
  unfold Window.fill; rw [dif_pos ((w.moved_iff i j).mpr h)]

end Cert.KernelIdeal.Blocks

end
-- ==== Proof.Spec.lean ====
/-
  The function both programs compute, stated once over the argument arrays, index by index, on the extended reals:
  one graph-convolution layer with a dense adjacency matrix,

      out[i, n] = max ( (∑ k, adj[i, k] · support[k, n]) + b[n] , 0 ),      support[k, n] = ∑ j, x[k, j] · W[j, n].

  The inner sum (the feature transform `x · W`) is formed first and the adjacency product second, in both programs, so
  no law of the extended reals beyond reading each matrix product as a finite sum is needed to join them: neither side
  reassociates, distributes or cancels, and the hypothesis that the inputs are finite is never used.
-/
import Idealize.ShloMosaic.PureOps.Ideal
import Idealize.ShloMosaic.Lib.ValueIdx

noncomputable section

open scoped BigOperators

namespace Cert.Spec

open Idealize.ShloMosaic Idealize.ShloMosaic.ValueIdx

/-- The transformed features: row `k` of `x` times column `n` of `W`, a sum over the 128 input features. -/
def support (x : (⟨2, ![10000, 128]⟩ : Shape).Idx → EReal) (W : (⟨2, ![128, 128]⟩ : Shape).Idx → EReal)
    (k : Fin 10000) (n : Fin 128) : EReal :=
  ∑ j : Fin 128, x (ix2 k j) * W (ix2 j n)

/-- One entry of the aggregated features before the bias: row `r` of `adj` times column `n` of the transformed
    features, a sum over the 10000 nodes. -/
def aggregate (x : (⟨2, ![10000, 128]⟩ : Shape).Idx → EReal) (adj : (⟨2, ![10000, 10000]⟩ : Shape).Idx → EReal)
    (W : (⟨2, ![128, 128]⟩ : Shape).Idx → EReal) (r : Fin 10000) (n : Fin 128) : EReal :=
  ∑ k : Fin 10000, adj (ix2 r k) * support x W k n

/-- The layer's output: the aggregate plus the bias of its column, clamped below at the zero word (which denotes `0`). -/
def layer (x : (⟨2, ![10000, 128]⟩ : Shape).Idx → EReal) (adj : (⟨2, ![10000, 10000]⟩ : Shape).Idx → EReal)
    (W : (⟨2, ![128, 128]⟩ : Shape).Idx → EReal) (b : (⟨1, ![128]⟩ : Shape).Idx → EReal) :
    (⟨2, ![10000, 128]⟩ : Shape).Idx → EReal :=
  fun i => max (aggregate x adj W (i 0) (i 1) + b (ix1 (i 1))) (Ideal.ofBits .f32 0x00000000#32)

end Cert.Spec

end
-- ==== Proof.KIOut.lean ====
/-
  The output block at a point, on its rows inside the array, is the layer function of the argument arrays.

  Entry `(p, q)` of the body's output is `max((∑ k, a[p, k] · s[k, q]) + bias[q], 0)`, where `a` is what the adjacency
  staging buffer holds and `s` what the scratch holds. Row `p` of the sum reads row `p` of `a` and no other; when
  `p` is a row of the block inside the array, the fetch put row `328·t + p` of the adjacency matrix there, whatever
  the buffer's rows past the array's end hold. With the scratch at the transformed features, that is the layer function at
  row `328·t + p`, column `q` — the entry of the result array the write-back puts this entry of the block on.
-/
import proofs.«167736_g85864986181825_cont_9to1_m_527_20_alg».proof.Proof.KIPay
import proofs.«167736_g85864986181825_cont_9to1_m_527_20_alg».proof.Proof.KIBlocks
import proofs.«167736_g85864986181825_cont_9to1_m_527_20_alg».proof.Proof.Spec

set_option maxRecDepth 16384

noncomputable section

open scoped BigOperators

namespace Cert.KernelIdeal.Out

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The transformed features `x · W` of the launch contents, as the scratch holds them after the first point. -/
def supportArr (c : Dev nD) : Vec Ideal S10000x128 .f32 :=
  fun i => Cert.Spec.support (m ((c : Thread nD τ).loc main_arg0)) (m ((c : Thread nD τ).loc main_arg2)) (i 0) (i 1)

/-- The layer function of the launch contents, as an array of the result's type. -/
def layerArr (c : Dev nD) : Buf (Elt Ideal) ((c : Thread nD τ).loc main_v1) :=
  Cert.Spec.layer (m ((c : Thread nD τ).loc main_arg0)) (m ((c : Thread nD τ).loc main_arg1))
    (m ((c : Thread nD τ).loc main_arg2)) (m ((c : Thread nD τ).loc main_arg3))

/-- What the first point stores into the scratch is the transformed features. -/
theorem support_first (c : Dev nD) (t : Fin cfg0.N) :
    k0_pay1 (F := Ideal) (iblk m c 0 t) (iblk m c 2 t) = supportArr m c := by
  funext i
  obtain ⟨p, q, rfl⟩ : ∃ (p : Fin 10000) (q : Fin 128), i = ix2 p q := ⟨i 0, i 1, eq_ix2 i⟩
  refine (Pay.support_apply (iblk m c 0 t) (iblk m c 2 t) p q).trans ?_
  unfold supportArr Cert.Spec.support
  refine Finset.sum_congr rfl fun j _ => ?_
  rw [Blocks.xBlock_apply m c t p j, Blocks.wBlock_apply m c t j q]

/-- The output payload over a filled adjacency buffer, the transformed features and the bias row, at an entry of the
    block's part inside the array, is the layer function at the array entry that part is written back to. -/
theorem out_cut (c : Dev nD) (t : Fin cfg0.N) (d : S328x10000.Idx → Elt Ideal .f32)
    (y : (win0_4.xblock (grid0.coords t)).Idx) :
    k0_pay2 (F := Ideal) (win0_1.fill (grid0.coords t) d (iblk m c 1 t)) (supportArr m c) (iblk m c 3 t)
        (win0_4.xinj (grid0.coords t) y)
      = layerArr m c ((win0_4.blk t).view.emb y) := by
  have hx := Blocks.xsize_facts t
  have hy0 : (y 0).val < win0_4.xsize (grid0.coords t) 0 := (y 0).isLt
  have hy1 : (y 1).val < win0_4.xsize (grid0.coords t) 1 := (y 1).isLt
  rw [hx.2.2.1] at hy0
  rw [hx.2.2.2] at hy1
  have hp : (y 0).val < 328 := lt_of_lt_of_le hy0 (Nat.min_le_left _ _)
  have hr : t.val * 328 + (y 0).val < 10000 := by
    have := lt_of_lt_of_le hy0 (Nat.min_le_right _ _); omega
  let p : Fin 328 := ⟨(y 0).val, hp⟩
  let q : Fin 128 := ⟨(y 1).val, hy1⟩
  let r : Fin 10000 := ⟨t.val * 328 + (y 0).val, hr⟩
  have e1 : win0_4.xinj (grid0.coords t) y = ix2 p q :=
    funext fun a => Fin.ext (by match a with | ⟨0, _⟩ => rfl | ⟨1, _⟩ => rfl)
  have e2 : (win0_4.blk t).view.emb y = ix2 r q := funext fun a => Fin.ext (by
    match a with
    | ⟨0, _⟩ => show win0_4.index t 0 * 328 + 1 * (y 0).val = t.val * 328 + (y 0).val; rw [(Blocks.index_facts t).2.2.2.2.2.2.2.2.1]; omega
    | ⟨1, _⟩ => show win0_4.index t 1 * 128 + 1 * (y 1).val = (y 1).val; rw [(Blocks.index_facts t).2.2.2.2.2.2.2.2.2]; omega)
  rw [e1, e2]
  refine (Pay.out_apply _ _ _ p q).trans ?_
  unfold layerArr Cert.Spec.layer Cert.Spec.aggregate
  rw [Blocks.bBlock_apply m c t q]
  refine congrArg (fun z => max (z + _) _) (Finset.sum_congr rfl fun k _ => ?_)
  have hmoved : ∀ a, ((ix2 p k : S328x10000.Idx) a).val < win0_1.xsize (grid0.coords t) a := fun a => by
    match a with
    | ⟨0, _⟩ => show (y 0).val < win0_1.xsize (grid0.coords t) 0; rw [hx.1]; exact hy0
    | ⟨1, _⟩ => show k.val < win0_1.xsize (grid0.coords t) 1; rw [hx.2.1]; exact k.isLt
  rw [Blocks.fill_of_lt win0_1 (grid0.coords t) d (iblk m c 1 t) (ix2 p k) hmoved,
    Blocks.adjBlock_apply m c t _ r k rfl rfl]
  rfl

end Cert.KernelIdeal.Out

end
-- ==== Proof.KIBody.lean ====
/-
  The idealized kernel's run: the proof data of its one pipeline, the body's obligation at every grid point, the launch,
  and what the result array holds afterwards.

  Between points the kernel carries one thing, in its scratch buffer: after the first point, and at every later one, the
  scratch holds the transformed features `x · W` of the launch contents (before the first point it holds anything, and
  after the last that is forgotten again). The three whole-array windows hold their arrays at every point. The adjacency
  window is refetched at every point: its buffer holds the point's row block on the rows inside the array, and on the
  last point's rows past the array's end words nothing names. The output block is stored whole at every point and written
  back on its rows inside the array; on those rows it is the layer function, because a row of the aggregation reads only
  the same row of the adjacency block. The 31 write-backs cover rows 0‥9999, so the result array ends as the layer
  function of the arguments.
-/
import proofs.«167736_g85864986181825_cont_9to1_m_527_20_alg».proof.Proof.KIPieces
import proofs.«167736_g85864986181825_cont_9to1_m_527_20_alg».proof.Proof.KIOut

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Out

local notation "𝕄" => MT nD τ sig Unit (Elt Ideal) ℕ (UR sig nD τ) ℕ

variable (m : (ℓ : Loc nD τ sig) → Buf (Elt Ideal) ℓ) (ρ : Dev nD → PrngReg)

/-! ## The invariant between points -/

/-- The scratch operand: a whole scoped buffer of the kernel's own. -/
abbrev scratchM : Memref sig .tc .vmem S10000x128 .f32 := Memref.whole cc0_scratch0

/-- The launch's invariant, with the scratch as a memref owned at some contents. -/
theorem PhiA_eq (c : Dev nD) :
    (Pipeline.ΦA spec0 c : sProp 𝕄)
      = iprop(iprop((∃ d, owns (c : Thread nD τ) scratchM fullShare d)) ∗ (∃ r, prngReg c r)) := by
  unfold Pipeline.ΦA; rw [scopedRest0_eq]; simp only [scratchM, owns_whole]; try rfl

/-- Before the first point the launch's invariant (the scratch at anything); before every later point, and after the
    last, the scratch at the transformed features. -/
def PhiS (c : Dev nD) : ℕ → sProp 𝕄
  | 0 => Pipeline.ΦA spec0 c
  | _ + 1 => iprop(iprop(owns (c : Thread nD τ) scratchM fullShare (supportArr m c)) ∗ (∃ r, prngReg c r))

theorem PhiS_of_zero (c : Dev nD) (n : ℕ) (h : n = 0) : PhiS m c n = Pipeline.ΦA spec0 c := by subst h; rfl

theorem PhiS_of_pos (c : Dev nD) (n : ℕ) (h : n ≠ 0) :
    PhiS m c n = iprop(iprop(owns (c : Thread nD τ) scratchM fullShare (supportArr m c)) ∗ (∃ r, prngReg c r)) := by
  cases n with
  | zero => exact absurd rfl h
  | succ n => rfl

/-! ## The proof data -/

/-- The proof data of the pipeline on core `c`: the arrays as the region finds them; after the body the whole-array
    windows' buffers at their arrays, the adjacency buffer at its row block (a zero past the array's end, where the
    obligation states nothing) and the output block at the layer function's rows (likewise); the invariant above;
    nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => iblk m c 2 t
    | ⟨3, _⟩ => iblk m c 3 t
    | ⟨4, _⟩ => win0_4.fill (grid0.coords t) (fun _ => (0 : EReal)) ((win0_4.blk t).view.read (Elt Ideal) (layerArr m c))
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = win0_1.fill (grid0.coords t) (fun _ => (0 : EReal)) (iblk m c 1 t) := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = win0_4.fill (grid0.coords t) (fun _ => (0 : EReal)) ((win0_4.blk t).view.read (Elt Ideal) (layerArr m c)) := by
  dsimp only [dats]

/-- The whole-array windows' buffers hold their arrays at every point, fetched there or not. -/
theorem before_0 (c : Dev nD) (t : Fin cfg0.N) (d) : (dats m 0 c).before 0 t d = iblk m c 0 t :=
  before0_0_of m (dats m 0 c) (A_eq m c 0) (after_0 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The adjacency buffer, fetched at every point, holds the point's row block where the fetch filled it and what it
    held (`d`, anything) past the array's end. -/
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq m c 1]; try rfl

theorem Phi_castSucc (c : Dev nD) (t : Fin cfg0.N) : (dats m 0 c).Φ t.castSucc = PhiS m c t.val := by
  dsimp only [dats]; try rfl
theorem Phi_succ (c : Dev nD) (t : Fin cfg0.N) : (dats m 0 c).Φ t.succ = PhiS m c (t.val + 1) := by
  dsimp only [dats]; try rfl

/-! ## The body obligation -/

set_option maxHeartbeats 2000000 in
/-- At every point the body runs from the invariant and the buffers as the pipeline hands them to the invariant at the
    next point and the buffers as the proof data states them: the whole-array buffers unchanged; the adjacency buffer
    unchanged, which on the rows inside the array is its row block; the output block at the body's payload, which on
    the rows inside the array is the layer function (`out_cut`). At the first point the scratch arrives at anything
    and leaves at the transformed features (`support_first`); at a later point it arrives and leaves at them. -/
theorem body_obligation (c : Dev nD) :
    BodyObligationLoose (dats m 0 c) (defs₀ (F := Ideal)) Variants.none () Set.univ := fun t => by
  rw [bigSep_W0, bigSep_W0]
  simp only
  rw [show (dats m 0 c).owesAt () t.succ = (dats m 0 c).owesAt () t.castSucc from rfl, Phi_castSucc, Phi_succ,
    PhiS_of_pos m c (t.val + 1) (Nat.succ_ne_zero _)]
  have hcut : ∀ (X : S328x128.Idx → EReal),
      (∀ y : (win0_4.xblock (grid0.coords t)).Idx, X (win0_4.xinj (grid0.coords t) y) = layerArr m c ((win0_4.blk t).view.emb y)) →
      win0_4.fill (grid0.coords t) X (win0_4.cut (grid0.coords t) ((dats m 0 c).after 4 t)) = X := fun X hX => by
    refine win0_4.fill_congr_cut (grid0.coords t) ?_
    rw [after_4, Window.cut_fill]
    funext y
    rw [View.read_apply]
    exact hX y
  by_cases hz : t.val = 0
  · have hc : isFirst (grid0.coords t) := (isFirst_iff t).mpr hz
    rw [PhiS_of_zero m c t.val hz, PhiA_eq]
    iintro ⟨⟨HS, Hg⟩, Ho, ⟨%d0, H0⟩, ⟨%d1, H1⟩, ⟨%d2, H2⟩, ⟨%d3, H3⟩, ⟨%d4, H4⟩⟩
    rw [before_0 m c t d0, before_1 m c t d1, before_2 m c t d2, before_3 m c t d3]
    iapply ((runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) hc (iblk m c 0 t)
      (win0_1.fill (grid0.coords t) d1 (iblk m c 1 t)) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%f5, H5⟩, ⟨%f6, H6⟩⟩
    isplitl [H6 Hg]
    · isplitl [H6]
      · unfold owns; iexists _; isplitr
        swap; · iexact H6
        ipureintro
        exact (first_scratch c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) hc _ _ _ _ f6).trans (support_first m c t)
      iexact Hg
    isplitl [Ho]; · iexact Ho
    isplitl [H0]
    · rw [after_0]; iexact H0
    isplitl [H1]
    · iexists d1
      rw [after_1, Window.cut_fill]; iexact H1
    isplitl [H2]
    · rw [after_2]; iexact H2
    isplitl [H3]
    · rw [after_3]; iexact H3
    · iexists _
      rw [hcut (k0_pay2 (F := Ideal) (win0_1.fill (grid0.coords t) d1 (iblk m c 1 t))
          (k0_pay1 (F := Ideal) (iblk m c 0 t) (iblk m c 2 t)) (iblk m c 3 t))
        (fun y => by rw [support_first m c t]; exact out_cut m c t d1 y)]
      unfold owns; iexists _; isplitr
      swap; · iexact H5
      ipureintro
      exact first_out c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) hc _ _ _ _ f5
  · have hc : ¬isFirst (grid0.coords t) := fun h => hz ((isFirst_iff t).mp h)
    rw [PhiS_of_pos m c t.val hz]
    iintro ⟨⟨HS, Hg⟩, Ho, ⟨%d0, H0⟩, ⟨%d1, H1⟩, ⟨%d2, H2⟩, ⟨%d3, H3⟩, ⟨%d4, H4⟩⟩
    rw [before_0 m c t d0, before_1 m c t d1, before_2 m c t d2, before_3 m c t d3]
    iapply ((runLater c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) hc (iblk m c 0 t)
      (win0_1.fill (grid0.coords t) d1 (iblk m c 1 t)) (iblk m c 2 t) (iblk m c 3 t) (supportArr m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%f5, H5⟩, HS⟩
    isplitl [HS Hg]
    · isplitl [HS]; · iexact HS
      iexact Hg
    isplitl [Ho]; · iexact Ho
    isplitl [H0]
    · rw [after_0]; iexact H0
    isplitl [H1]
    · iexists d1
      rw [after_1, Window.cut_fill]; iexact H1
    isplitl [H2]
    · rw [after_2]; iexact H2
    isplitl [H3]
    · rw [after_3]; iexact H3
    · iexists _
      rw [hcut (k0_pay2 (F := Ideal) (win0_1.fill (grid0.coords t) d1 (iblk m c 1 t)) (supportArr m c) (iblk m c 3 t))
        (fun y => out_cut m c t d1 y)]
      unfold owns; iexists _; isplitr
      swap; · iexact H5
      ipureintro
      exact later_out c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) hc _ _ _ _ _ f5

/-! ## The launch -/

theorem hin (c : Dev nD) : Pipeline.ΦA spec0 c ⊢ (dats m 0 c).Φ 0 := by
  rw [show (dats m 0 c).Φ 0 = PhiS m c 0 from rfl, PhiS_of_zero m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl,
    PhiS_of_pos m c cfg0.N (by rw [show cfg0.N = 31 from N_0]; decide), PhiA_eq]
  iintro ⟨HS, Hg⟩
  isplitl [HS]
  · iexists _; iexact HS
  iexact Hg

set_option backward.isDefEq.respectTransparency.types false in
/-- Every weakly fair execution of the idealized kernel's @main terminates, and every final state has each array of the
    pipeline at what the library computes from the proof data and every other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

end Cert.KernelIdeal.Body

end
-- ==== Proof.KIValue.lean ====
/-
  From the blocks to the whole result array.

  Point `t` writes back, onto rows `328·t ‥ 328·t + 327` of the result (cut at row 9999 for the last point), the
  output block's rows inside the array, which are the layer function's rows there. Row `r` of the array lies in the
  block of point `r / 328`, so the 31 write-backs cover the array and it ends holding the layer function of the
  arguments; the arguments themselves are never written.
-/
import proofs.«167736_g85864986181825_cont_9to1_m_527_20_alg».proof.Proof.KIBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Out

variable (m : (ℓ : Loc nD τ sig) → Buf (Elt Ideal) ℓ) (ρ : Dev nD → PrngReg)

/-- What point `t` writes back is the layer function read through the point's block of the result array. -/
theorem flushed_eq (c : Dev nD) (t : Fin cfg0.N) :
    (dats m 0 c).flushed 4 t = ((cfg0.win 4).blk t).view.read (Elt Ideal) (layerArr m c) := by
  show win0_4.cut (grid0.coords t) ((dats m 0 c).after 4 t) = _
  rw [after_4, Window.cut_fill]

/-- An entry of the result array is in point `t`'s block iff its row is among the block's rows inside the array (its
    column always is: the blocks span the 128 columns). -/
theorem mem_blk (t : Fin cfg0.N) (i : S10000x128.Idx) :
    i ∈ (win0_4.blk t).view.set ↔ win0_4.index t 0 * 328 ≤ (i 0 : Nat) ∧ (i 0 : Nat) < win0_4.index t 0 * 328 + win0_4.xsize (grid0.coords t) 0 := by
  show i ∈ ((View.whole main_v1).slice (win0_4.rect t)).set ↔ _
  rw [View.set_slice_whole, Rect.mem_set_unit]
  have h1 : (i 1 : Nat) < 128 := (i 1).isLt
  have e0 : win0_4.index t 1 = 0 := (Blocks.index_facts t).2.2.2.2.2.2.2.2.2
  have e1 : win0_4.xsize (grid0.coords t) 1 = 128 := (Blocks.xsize_facts t).2.2.2
  refine ⟨fun h => h 0, fun h a => ?_⟩
  match a with
  | ⟨0, _⟩ => exact h
  | ⟨1, _⟩ =>
    change win0_4.index t 1 * 128 ≤ (i 1 : Nat) ∧ (i 1 : Nat) < win0_4.index t 1 * 128 + win0_4.xsize (grid0.coords t) 1
    rw [e0, e1]; omega

/-- Every entry of the result array is written back by some point: row `r` by point `r / 328`. -/
theorem cover (i : S10000x128.Idx) :
    ∃ t : Fin cfg0.N, (cfg0.win 4).flush t = true ∧ i ∈ ((cfg0.win 4).blk t).view.set := by
  have hi : (i 0 : Nat) < 10000 := (i 0).isLt
  have hN : cfg0.N = 31 := N_0
  have ht : (i 0 : Nat) / 328 < cfg0.N := by rw [hN]; omega
  refine ⟨⟨(i 0 : Nat) / 328, ht⟩, flush0_4 _, (mem_blk _ i).mpr ?_⟩
  rw [(Blocks.index_facts ⟨(i 0 : Nat) / 328, ht⟩).2.2.2.2.2.2.2.2.1, (Blocks.xsize_facts ⟨(i 0 : Nat) / 328, ht⟩).2.2.1]
  show (i 0 : Nat) / 328 * 328 ≤ (i 0 : Nat) ∧ (i 0 : Nat) < (i 0 : Nat) / 328 * 328 + min 328 (10000 - (i 0 : Nat) / 328 * 328)
  omega

/-- After the run the result array holds the layer function of the launch contents. -/
theorem final (c : Dev nD) : (dats m 0 c).arrAt 4 cfg0.N = layerArr m c :=
  (dats m 0 c).arrAt_eq_of_cover 4 (layerArr m c) (fun t _ => flushed_eq m c t) (fun i => cover i)

/-- The idealized kernel's frame: it runs, faults nowhere, and its arguments end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The idealized kernel's value: every weakly fair execution terminates with the result array at the layer function of
    the arguments' launch contents, and the arguments unchanged. -/
theorem run_layer : θ_run defs (onTc (τ := τ) (main (F := Ideal))) ⟨m, fun _ => 0, ρ⟩ (fun r => ∀ c : Dev nD,
      r.2.mem ((c.tc : Thread nD τ).loc main_v1) = Cert.Spec.layer (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.Body

end
-- ==== Proof.RefLayer.lean ====
/-
  The reference program computes the layer function.

  The reference forms the transformed features `x · W` first and the adjacency product second, adds the bias row
  repeated over the nodes, and clamps below at the zero word repeated over the whole array. Read at an entry `(r, n)`,
  each matrix product is a finite sum over its one contracted axis, each repetition reads its operand at the
  coordinates it keeps, and the sum and the maximum act entry by entry. Term for term that is the layer function of the
  specification: no law of the extended reals is used, only the reading of each operation at an index and the
  identification of the indices it reads with the coordinates `(r, k)`, `(k, n)`, `(k, j)`, `(j, n)` and `n`.
-/
import proofs.«167736_g85864986181825_cont_9to1_m_527_20_alg».proof.Proof.Gen.ReferenceIdeal.Read
import proofs.«167736_g85864986181825_cont_9to1_m_527_20_alg».proof.Proof.Spec
import proofs.«167736_g85864986181825_cont_9to1_m_527_20_alg».proof.Defs
import proofs.«167736_g85864986181825_cont_9to1_m_527_20_alg».proof.Proof.Gen.Pre_finite_inputs
import Idealize.ShloMosaic.Lib.ValueIdx
import Idealize.ShloMosaic.PureOps.Ideal

noncomputable section

open scoped BigOperators

namespace Cert.ReferenceIdeal.RefLayer

open Cert.ReferenceIdeal Cert.ReferenceIdeal.Gen Idealize.ShloMosaic Idealize.ShloMosaic.TcCoe Idealize.SL.Sem
  Idealize.ShloMosaic.StableHlo Idealize.ShloMosaic.ValueIdx

/-- The reference's first product is the transformed features: entry `(k, n)` contracts row `k` of `x` with column
    `n` of `W` over the 128 input features. -/
theorem firstProduct_eq_support (x : FVec Ideal S10000x128 .f32) (W : FVec Ideal S128x128 .f32)
    (k : Fin 10000) (n : Fin 128) :
    Read.val_main_v0 (F := Ideal) x W (ix2 k n) = Cert.Spec.support x W k n := by
  rw [Read.val_main_v0_apply]
  unfold Cert.Spec.support
  refine Finset.sum_congr rfl fun j _ => ?_
  have el : Read.lidx_main_v0 (ix2 k n) j = ix2 k j :=
    funext fun a => Fin.ext (by match a with | ⟨0, _⟩ => rfl | ⟨1, _⟩ => rfl)
  have er : Read.ridx_main_v0 (ix2 k n) j = ix2 j n :=
    funext fun a => Fin.ext (by match a with | ⟨0, _⟩ => rfl | ⟨1, _⟩ => rfl)
  rw [el, er]

/-- The reference's second product is the aggregate: entry `(r, n)` contracts row `r` of `adj` with column `n` of
    the transformed features over the 10000 nodes. -/
theorem secondProduct_eq_aggregate (x : FVec Ideal S10000x128 .f32) (adj : FVec Ideal S10000x10000 .f32)
    (W : FVec Ideal S128x128 .f32) (r : Fin 10000) (n : Fin 128) :
    Read.val_main_v1 (F := Ideal) x adj W (ix2 r n) = Cert.Spec.aggregate x adj W r n := by
  rw [Read.val_main_v1_apply]
  unfold Cert.Spec.aggregate
  refine Finset.sum_congr rfl fun k _ => ?_
  have el : Read.lidx_main_v1 (ix2 r n) k = ix2 r k :=
    funext fun a => Fin.ext (by match a with | ⟨0, _⟩ => rfl | ⟨1, _⟩ => rfl)
  have er : Read.ridx_main_v1 (ix2 r n) k = ix2 k n :=
    funext fun a => Fin.ext (by match a with | ⟨0, _⟩ => rfl | ⟨1, _⟩ => rfl)
  rw [el, er, firstProduct_eq_support]

/-- The bias, repeated first as a row and then over the nodes, reads at `(r, n)` the bias of column `n`. -/
theorem biasRows_apply (b : FVec Ideal S128 .f32) (r : Fin 10000) (n : Fin 128) :
    Read.val_main_v3 (F := Ideal) b (ix2 r n) = b (ix1 n) := by
  rw [Read.val_main_v3_apply, Read.val_main_v2_apply]
  exact congrArg b (funext fun a => Fin.ext (by match a with | ⟨0, _⟩ => rfl))

/-- The clamp's lower bound, the zero word repeated over the whole array, reads that word at every entry. -/
theorem zeroArray_apply (i : S10000x128.Idx) :
    Read.val_main_call0_v0 (F := Ideal) i = Ideal.ofBits .f32 0x00000000#32 := by
  rw [Read.val_main_call0_v0_apply, Read.val_main_call0_cst_apply]
  rfl

/-- The reference's result, as one term of its four arguments, is the layer function. -/
theorem result_eq (x : FVec Ideal S10000x128 .f32) (adj : FVec Ideal S10000x10000 .f32)
    (W : FVec Ideal S128x128 .f32) (b : FVec Ideal S128 .f32) :
    maximumf (addf (Host.dotGeneral dot_S10000x10000_S10000x128_S10000x128_1_0_0_1_n_n none (adj) (Host.dotGeneral dot_S10000x128_S128x128_S10000x128_1_0_0_1_n_n none (x) (W))) (broadcastInDim S10000x128 ![0, 1] bcast_S1x128_S10000x128_0_1 (broadcastInDim S1x128 ![1] bcast_S128_S1x128_1 (b)))) (broadcastInDim S10000x128 ![] bcast_S_S10000x128 (constant (F := Ideal) S_ .f32 0x00000000#32))
      = Cert.Spec.layer x adj W b := by
  refine (Read.val_main_v5_eq (F := Ideal) x adj W b).trans ?_
  funext i
  obtain ⟨r, n, rfl⟩ : ∃ (r : Fin 10000) (n : Fin 128), i = ix2 r n := ⟨i 0, i 1, eq_ix2 i⟩
  rw [Read.val_main_v5_apply, Read.val_main_v4_apply, secondProduct_eq_aggregate, biasRows_apply, zeroArray_apply,
    Ideal.addf_def, Ideal.maximumf_def]
  rfl

/-- Every weakly fair execution of the reference terminates with its result the layer function of the arguments'
    launch contents, and the arguments unchanged. -/
theorem run_layer (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v5) = Cert.Spec.layer (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run (Cert.ReferenceIdeal.defs (F := Ideal)) _ _).mono
    (fun _ h c => ⟨(h c).1.trans (result_eq _ _ _ _), (h c).2⟩)
    (Cert.ReferenceIdeal.Value.run (F := Ideal) m ρ)

/-- The reference runs and leaves its arguments unchanged: its run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

end Cert.ReferenceIdeal.RefLayer

end
-- ==== Proof.lean ====
/-
  The kernel and its reference compute the same graph-convolution layer.

  Both programs form the transformed features `x · W` first and multiply the dense adjacency matrix with them second,
  add the bias of the column and clamp below at zero:

      out[i, n] = max ( (∑ k, adj[i, k] · (∑ j, x[k, j] · W[j, n])) + b[n] , 0 ).

  On the extended reals each matrix product, read at an entry, is the finite sum along its contracted axis, so the two
  results are the same function of the arguments term for term (the module `Spec` states it, `RefLayer` reads the
  reference as it, `KIValue` the idealized kernel); no law that could fail at an infinity is used, and the hypothesis
  that the inputs are finite is never opened.

  The kernel works through the adjacency matrix 328 rows at a time over 31 grid points, keeping the transformed features
  in a scratch buffer from the first point on; the last block reaches 168 rows past the end of the matrix, and what the
  staging buffers hold there is never named — a row of the product reads only the same row of the block, and only rows
  inside the array are written back. The frames: the reference's is its run with the result dropped; the idealized
  kernel's comes with its value run; the word-level kernel's names nothing the body writes. The idealization rewrote no
  operation, so that conjunct is trivial.
-/
import proofs.«167736_g85864986181825_cont_9to1_m_527_20_alg».proof.Defs
import proofs.«167736_g85864986181825_cont_9to1_m_527_20_alg».proof.Proof.KFrame
import proofs.«167736_g85864986181825_cont_9to1_m_527_20_alg».proof.Proof.KIValue
import proofs.«167736_g85864986181825_cont_9to1_m_527_20_alg».proof.Proof.RefLayer
import proofs.«167736_g85864986181825_cont_9to1_m_527_20_alg».proof.Proof.Gen.Kernel
import proofs.«167736_g85864986181825_cont_9to1_m_527_20_alg».proof.Proof.Gen.KernelIdeal
import proofs.«167736_g85864986181825_cont_9to1_m_527_20_alg».proof.Proof.Gen.ReferenceIdeal
import proofs.«167736_g85864986181825_cont_9to1_m_527_20_alg».proof.Proof.Gen.Pre_finite_inputs
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Body.frame (F := Bits) m ρ

/-- The idealized kernel runs and leaves its arguments unchanged. -/
theorem frame_ki : Cert.frame_KernelIdeal := fun m ρ _ => Cert.KernelIdeal.Body.frame m ρ

/-- From memories agreeing on the arguments both idealized programs end with the layer function of those arguments:
    the kernel's result array by its value run, the reference's by its run, the agreement rewritten. -/
theorem algebraic : Cert.algebraic_KernelIdeal_ReferenceIdeal := by
  intro m ρ m' ρ' _ hagree
  refine ⟨_, Cert.KernelIdeal.Body.run_layer m ρ, ?_⟩
  refine (θ_run (Cert.ReferenceIdeal.defs (F := Ideal)) _ _).mono (fun _ h c => ⟨(h c).1.trans ?_, (h c).2⟩)
    (Cert.ReferenceIdeal.RefLayer.run_layer m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefLayer.frame_ri, trivial, algebraic⟩

end Cert.Proof

end
